-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) (main_arg1 : FVec F S32x1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  main_v8
-- ==== Kernel.lean ====
abbrev S32x1024x1024 : Shape := ⟨3, ![32, 1024, 1024]⟩
abbrev S1x1 : Shape := ⟨2, ![1, 1]⟩
abbrev S2x1024x1024 : Shape := ⟨3, ![2, 1024, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 14
  | .vmem => 6
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i1⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1024x1024, .f32⟩
  | .local _ .vmem, ⟨3, _⟩ => ⟨S2x1024x1024, .f32⟩
  | .local _ .vmem, ⟨4, _⟩ => ⟨S1x1, .f32⟩
  | .local _ .vmem, ⟨5, _⟩ => ⟨S1x1, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S2x1024x1024_S2x1024x1024_0_0_0 : ∀ a, (![0, 0, 0] : Fin 3 → Nat) a + S2x1024x1024.size a ≤ S2x1024x1024.size a
  h_S2x1024x1024 : 0 < S2x1024x1024.numel
  natLt_1_32 : 1 < 32
  reduces_S2x1024x1024_S1024x1024 : S2x1024x1024.Reduces [0] S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S32x1024x1024.size a
  hwx0_0 : ∀ i : grid0.Coords, EltTy.bits .f32 = 32 ∨ (Rect.block (s := S32x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S32x1024x1024.size a
  hwx0_1 : ∀ i : grid0.Coords, EltTy.bits .f32 = 32 ∨ (Rect.block (s := S32x1024x1024) S2x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S33554432 : Shape := ⟨1, ![33554432]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S33554432, .f32⟩
  | .hbm, ⟨3, _⟩ => ⟨S33554432, .f32⟩
  | .hbm, ⟨4, _⟩ => ⟨S33554432, .i1⟩
  | .hbm, ⟨5, _⟩ => ⟨S33554432, .f32⟩
  | .hbm, ⟨6, _⟩ => ⟨S_, .f32⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S_, .f32⟩
  | .hbm, ⟨12, _⟩ => ⟨S33554432, .i32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S_, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call1_v0 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  shapeCasts_S32x1024x1024_S33554432 : S32x1024x1024.ShapeCasts S33554432
  bcast_S_S33554432 : S_.BroadcastsInDim S33554432 (![] : Fin 0 → Fin S33554432.rank)
  reducesTo_S33554432_S_d0 : S33554432.ReducesTo [0] S_
  h_S_ : 0 < S_.numel
  natLt_1_32 : 1 < 32

variable [Facts₀]

class Facts : Prop extends Facts₀ where

variable [Facts]
-- ==== Proof.Pieces.lean ====
/-
  What one run of the kernel body leaves in the two one-element accumulators.

  At the first grid point the body stores zero in each accumulator, reads it back, and stores the read-back value
  plus the block's partial result; at every later point it stores what the accumulator held plus the block's
  partial result. Each accumulator is covered by its last store, so its contents after the body are that store's
  payload: the running value plus the partial result, with the running value zero at the first point.
-/
import proofs.«132226_j69355131896601_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point: the sum accumulator ends at its old contents plus the block's partial sum. -/
theorem sum_later (c : Dev nD) (i : grid0.Coords) (a1 : Memref sig .tc .vmem S2x1024x1024 .f32) (h1 : a1.IsWhole)
    (a2 : Memref sig .tc .vmem S2x1024x1024 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S2x1024x1024 .f32) (xo2 xo3 : Vec F S1x1 .f32) :
    out0_B_2 c i a1 h1 a2 h2 a3 h3 a4 h4 hc x0 x1 xo2 xo3 = k0_pay4 x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h3.read_unread, h4.read_unread,
    View.ld_unit_zero (S := S2x1024x1024) hz3, View.ld_unit_zero (S := S1x1) hz2]

/-- A later point: the count accumulator ends at its old contents plus the block's partial count. -/
theorem count_later (c : Dev nD) (i : grid0.Coords) (a1 : Memref sig .tc .vmem S2x1024x1024 .f32) (h1 : a1.IsWhole)
    (a2 : Memref sig .tc .vmem S2x1024x1024 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S2x1024x1024 .f32) (xo2 xo3 : Vec F S1x1 .f32) :
    out0_B_3 c i a1 h1 a2 h2 a3 h3 a4 h4 hc x0 x1 xo2 xo3 = k0_pay5 x0 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h3.read_unread, h4.read_unread,
    View.ld_unit_zero (S := S2x1024x1024) hz3, View.ld_unit_zero (S := S1x1) hz2]

/-- The first point: the sum accumulator ends at the stored zero plus the block's partial sum. -/
theorem sum_first (c : Dev nD) (i : grid0.Coords) (a1 : Memref sig .tc .vmem S2x1024x1024 .f32) (h1 : a1.IsWhole)
    (a2 : Memref sig .tc .vmem S2x1024x1024 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S2x1024x1024 .f32) :
    out0_A_2 c i a1 h1 a2 h2 a3 h3 a4 h4 hc x0 x1 = k0_pay4 x0 x1 (k0_pay1 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread,
    View.ld_unit_zero (S := S2x1024x1024) hz3, View.ld_unit_zero (S := S1x1) hz2]

/-- The first point: the count accumulator ends at the stored zero plus the block's partial count. -/
theorem count_first (c : Dev nD) (i : grid0.Coords) (a1 : Memref sig .tc .vmem S2x1024x1024 .f32) (h1 : a1.IsWhole)
    (a2 : Memref sig .tc .vmem S2x1024x1024 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S2x1024x1024 .f32) :
    out0_A_3 c i a1 h1 a2 h2 a3 h3 a4 h4 hc x0 x1 = k0_pay5 x0 x1 (k0_pay2 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread,
    View.ld_unit_zero (S := S2x1024x1024) hz3, View.ld_unit_zero (S := S1x1) hz2]

end Cert.KernelIdeal.Pieces

end
-- ==== Proof.Spec.lean ====
/-
  The specification: what both programs compute, as one function of the two argument arrays.

  Write x, y for the two arrays of shape [32, 1024, 1024]. Entry by entry put
      d(a, b) = a - b  if a > b,  else 0          (the masked difference)
      n(a, b) = 1      if a > b,  else 0          (the mask, as a number)
  and let S = Σ d(x j, y j) and C = Σ n(x j, y j), both over every index j. The result is the scalar
      if C > 0 then S / max(C, 1) else 0.
  The kernel reaches S and C block by block: it cuts the first axis into sixteen blocks of two, totals each block,
  and adds the sixteen block totals in order. That is the same sum because the sixteen blocks partition the index
  set: (t, (b, r, c)) ↦ (2t + b, r, c) is a bijection from pairs (block number, index inside the block) onto the
  indices of the whole array. Only commutativity and associativity of addition are used, which hold for all
  extended reals, so no finiteness of the inputs is needed anywhere.
-/
import Idealize.ShloMosaic.PureOps.Ideal.Laws
import Idealize.ShloMosaic.Lib.ValueIdx

noncomputable section

namespace MaskedMean

open Idealize.ShloMosaic Idealize.ShloMosaic.ValueIdx

/-- The shape of the argument arrays, of one block of them, and of a scalar. -/
abbrev SA : Shape := ⟨3, ![32, 1024, 1024]⟩
abbrev SB : Shape := ⟨3, ![2, 1024, 1024]⟩
abbrev S0 : Shape := ⟨0, ![]⟩

/-- The masked difference of two entries: a - b where a > b, the float zero elsewhere. -/
def d (a b : Ideal .f32) : Ideal .f32 :=
  Scalar.select (FloatOps.cmpf (F := Ideal) (φ := .f32) .ogt a b) (a - b) (Ideal.ofBits .f32 0x00000000#32)

/-- The mask of two entries as a number: the one-bit comparison widened to a 32-bit word, read signed. -/
def n (a b : Ideal .f32) : Ideal .f32 :=
  ((((FloatOps.cmpf (F := Ideal) (φ := .f32) .ogt a b).setWidth 32).toInt : ℝ) : EReal)

/-- The total masked difference and the number of masked entries, over the whole arrays. -/
def S (x y : SA.Idx → Ideal .f32) : Ideal .f32 := ∑ j : SA.Idx, d (x j) (y j)
def C (x y : SA.Idx → Ideal .f32) : Ideal .f32 := ∑ j : SA.Idx, n (x j) (y j)

/-- The last step, shared by both programs: the mean where anything was counted, zero otherwise. -/
def mean (s c : FVec Ideal S0 .f32) : FVec Ideal S0 .f32 :=
  select (cmpf (F := Ideal) .ogt c (constant S0 .f32 0x00000000#32))
    (Host.divf s (maximumf c (constant S0 .f32 0x3F800000#32))) (id (constant S0 .f32 0x00000000#32))

/-! ## The sixteen blocks partition the index set -/

/-- Index (b, r, c) of block t, as an index of the whole array: (2t + b, r, c). -/
def blkIdx (t : Fin 16) (y : SB.Idx) : SA.Idx := fun a => match a with
  | ⟨0, _⟩ => ⟨2 * t.val + (y 0).val, by
      have h0 : (y 0).val < 2 := (y 0).isLt
      have ht := t.isLt
      show 2 * t.val + (y 0).val < 32
      omega⟩
  | ⟨1, _⟩ => y 1
  | ⟨2, _⟩ => y 2

/-- Which block an index lies in, and where inside it: (a, r, c) is index (a mod 2, r, c) of block a / 2. -/
def blkOf (j : SA.Idx) : Fin 16 × SB.Idx :=
  (⟨(j 0).val / 2, by have h0 : (j 0).val < 32 := (j 0).isLt; omega⟩,
   fun a => match a with
    | ⟨0, _⟩ => ⟨(j 0).val % 2, by show (j 0).val % 2 < 2; omega⟩
    | ⟨1, _⟩ => j 1
    | ⟨2, _⟩ => j 2)

/-- The two are inverse: pairs (block, index in the block) are the indices of the array. -/
def blkEquiv : Fin 16 × SB.Idx ≃ SA.Idx where
  toFun p := blkIdx p.1 p.2
  invFun := blkOf
  left_inv := fun ⟨t, y⟩ => by
    have h0 : (y 0).val < 2 := (y 0).isLt
    refine Prod.ext (Fin.ext ?_) (funext fun a => ?_)
    · show (2 * t.val + (y 0).val) / 2 = t.val
      omega
    · match a with
      | ⟨0, _⟩ => exact Fin.ext (by show (2 * t.val + (y 0).val) % 2 = (y 0).val; omega)
      | ⟨1, _⟩ => rfl
      | ⟨2, _⟩ => rfl
  right_inv := fun j => funext fun a => by
    match a with
    | ⟨0, _⟩ => exact Fin.ext (by show 2 * ((j 0).val / 2) + (j 0).val % 2 = (j 0).val; omega)
    | ⟨1, _⟩ => rfl
    | ⟨2, _⟩ => rfl

/-- So a sum over the array is the sum, over the sixteen blocks, of the sums over each block. -/
theorem sum_blocks {M : Type} [AddCommMonoid M] (g : SA.Idx → M) :
    ∑ t : Fin 16, ∑ y : SB.Idx, g (blkIdx t y) = ∑ j : SA.Idx, g j := by
  rw [← Fintype.sum_prod_type' (fun t y => g (blkIdx t y))]
  exact Equiv.sum_comp blkEquiv g

end MaskedMean

end
-- ==== Proof.LibTotalSum.lean ====
/-
  Totals. A sum over every index of an array survives the operations that only regroup it: a reduction by
  addition along any axes (each source index lands in exactly one fibre), a change of shape (a bijection of
  index sets), and the reading of a one-element array at its only index. Beside these, the one arithmetic
  fact about counting: a wrapping 32-bit sum of zero-or-one words, over fewer than 2^31 indices, read as a
  signed integer, is the number of ones — so it is the sum of the words read one at a time.
-/
import Idealize.ShloMosaic.PureOps.Ideal.Laws
import Idealize.ShloMosaic.PureOps.Reduce
import Idealize.ShloMosaic.Lib.ValueIdx

noncomputable section

namespace TotalSum

open Idealize.ShloMosaic

/-- The real-to-extended-real inclusion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A reduction by addition keeps the total: summing the reduced array over its indices is summing the
    source over its own, because the fibres of the index projection partition the source's indices. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- The same for the vector reduction as a kernel body prints it, read at the exact instance. -/
theorem sum_multiReduction_add {φ : FTy} {s t : Shape} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i :=
  sum_reduceAdd h src

/-- The same with the accumulator spelt as a kernel body prints it: the 32-bit zero word, known to be itself. -/
theorem sum_multiReduction_add_zero {s t : Shape} {axes : List (Fin s.rank)} (src : FVec Ideal s .f32)
    (h : s.Reduces axes t) (hacc : (0x00000000#32 : BitVec 32) = 0x00000000#32) :
    ∑ j : t.Idx, multiReduction .add axes t src 0x00000000#32 h (.inl rfl) hacc j = ∑ i : s.Idx, src i :=
  sum_reduceAdd h src

/-- A change of shape keeps the total: it reads the source through a bijection of the index sets. -/
theorem sum_shapeCast {M : Type} [AddCommMonoid M] {s t : Shape} (x : s.Idx → M) (h : s.ShapeCasts t) :
    ∑ j : t.Idx, shapeCast t x h j = ∑ i : s.Idx, x i := by
  unfold shapeCast
  exact Equiv.sum_comp (Shape.reshapeEquiv h) x

/-- Summing `g` of two arrays read through the same change of shape is summing `g` of the arrays. -/
theorem sum_shapeCast₂ {M : Type} [AddCommMonoid M] {α : Type} {s t : Shape} (x y : s.Idx → α) (h : s.ShapeCasts t)
    (g : α → α → M) :
    ∑ j : t.Idx, g (shapeCast t x h j) (shapeCast t y h j) = ∑ i : s.Idx, g (x i) (y i) := by
  unfold shapeCast
  exact Equiv.sum_comp (Shape.reshapeEquiv h) fun i => g (x i) (y i)

/-- An array with one index is, at that index, its own total. -/
theorem eq_sum_of_subsingleton {M : Type*} [AddCommMonoid M] {ι : Type*} [Fintype ι] [Subsingleton ι] (w : ι → M) (i : ι) :
    w i = ∑ j : ι, w j :=
  (Fintype.sum_subsingleton w i).symm

/-- The number of indices of a shape is its number of elements. -/
theorem card_idx (s : Shape) : Fintype.card s.Idx = s.numel := by
  rw [Fintype.card_congr s.rowMajor, Fintype.card_fin]

/-! ## Counting ones in 32-bit words -/

/-- The unsigned value of a wrapping sum of words is the sum of their unsigned values, modulo 2^32. -/
theorem toNat_fold_add {ι : Type*} (s : Finset ι) (f : ι → BitVec 32) :
    (s.fold IntOp.addi 0#32 f).toNat = (∑ i ∈ s, (f i).toNat) % 2 ^ 32 := by
  classical
  induction s using Finset.induction_on with
  | empty => simp
  | insert a s ha ih =>
    rw [Finset.fold_insert ha, Finset.sum_insert ha]
    show (f a + s.fold IntOp.addi 0#32 f).toNat = _
    rw [BitVec.toNat_add, ih]
    omega

/-- A one-bit word widened to 32 bits is 0 or 1, whether read unsigned or signed. -/
theorem toNat_setWidth_le_one (b : BitVec 1) : (b.setWidth 32).toNat ≤ 1 := by
  have := b.isLt
  rw [BitVec.toNat_setWidth]
  have : b.toNat < 2 := by simpa using b.isLt
  omega

theorem toInt_setWidth_eq (b : BitVec 1) : ((b.setWidth 32).toInt : ℝ) = ((b.setWidth 32).toNat : ℝ) := by
  have h := toNat_setWidth_le_one b
  rw [BitVec.toInt_eq_toNat_of_lt (by omega)]
  exact Int.cast_natCast _

/-- COUNTING. Over fewer than 2^31 indices, the wrapping 32-bit sum of widened one-bit words, read as a signed
    integer and then as a real, is the sum of the words each read that way: the true count never reaches the
    sign bit, so nothing wraps. -/
theorem toInt_fold_add_bits {ι : Type*} [Fintype ι] (hcard : Fintype.card ι < 2 ^ 31) (b : ι → BitVec 1) :
    (((Finset.univ.fold IntOp.addi 0#32 fun i => (b i).setWidth 32).toInt : ℝ) : EReal)
      = ∑ i : ι, ((((b i).setWidth 32).toInt : ℝ) : EReal) := by
  have hle : ∑ i : ι, ((b i).setWidth 32).toNat ≤ Fintype.card ι := by
    calc ∑ i : ι, ((b i).setWidth 32).toNat ≤ ∑ _i : ι, 1 := Finset.sum_le_sum fun i _ => toNat_setWidth_le_one (b i)
      _ = Fintype.card ι := by simp
  have hN : (Finset.univ.fold IntOp.addi 0#32 fun i => (b i).setWidth 32).toNat = ∑ i : ι, ((b i).setWidth 32).toNat := by
    rw [toNat_fold_add]
    exact Nat.mod_eq_of_lt (by omega)
  rw [BitVec.toInt_eq_toNat_of_lt (by rw [hN]; omega), hN, ← coe_sum]
  congr 1
  rw [Int.cast_natCast, Nat.cast_sum]
  exact Finset.sum_congr rfl fun i _ => (toInt_setWidth_eq (b i)).symm

end TotalSum

end
-- ==== Proof.BlockValue.lean ====
/-
  One block's contribution, read as numbers.

  The body turns a block pair (x, y) of shape [2, 1024, 1024] into a one-element array by three reductions by
  addition (over the batch axis, then over the lanes, then over the rows) with two changes of shape between them.
  Every one of these steps keeps the total of its operand, and a one-element array is its own total, so what the
  body adds to an accumulator is the total over the block: of the masked differences for the sum accumulator, of
  the mask's entries for the count accumulator.
-/
import proofs.«132226_j69355131896601_2_alg».proof.Proof.Gen.KernelIdeal.Skeleton
import proofs.«132226_j69355131896601_2_alg».proof.Proof.Spec
import proofs.«132226_j69355131896601_2_alg».proof.Proof.LibTotalSum
import Idealize.ShloMosaic.Lib.Pipeline.Value

noncomputable section

open Idealize.ShloMosaic Idealize.ShloMosaic.TcCoe

namespace Cert.KernelIdeal.BlockValue

open Cert.KernelIdeal Cert.KernelIdeal.Gen MaskedMean Idealize.ShloMosaic.ValueIdx

/-- An accumulator has one index. -/
instance : Subsingleton S1x1.Idx := ⟨fun a b => funext fun k => Fin.ext (by
  match k with
  | ⟨0, _⟩ =>
    have h1 : (a 0).val < 1 := (a 0).isLt
    have h2 : (b 0).val < 1 := (b 0).isLt
    show (a 0).val = (b 0).val
    omega
  | ⟨1, _⟩ =>
    have h1 : (a 1).val < 1 := (a 1).isLt
    have h2 : (b 1).val < 1 := (b 1).isLt
    show (a 1).val = (b 1).val
    omega)⟩

/-- The body's chain of reductions and changes of shape, applied to any block vector v and added to the old
    contents of an accumulator: the old contents plus the total of v. -/
theorem chain_total (v : FVec Ideal S2x1024x1024 .f32) (xo : Vec Ideal S1x1 .f32) (k : S1x1.Idx)
    (h1 h2 h3 : (0x00000000#32 : BitVec 32) = 0x00000000#32) :
    addf (shapeCast S1x1 xo shapeCasts_S1x1_S1x1)
      (shapeCast S1x1 (multiReduction .add [0] S1
        (shapeCast S1024x1 (multiReduction .add [1] S1024
          (multiReduction .add [0] S1024x1024 v 0x00000000#32 reduces_S2x1024x1024_S1024x1024 (.inl rfl) h1)
          0x00000000#32 reduces_S1024x1024_S1024 (.inl rfl) h2) shapeCasts_S1024_S1024x1)
        0x00000000#32 reduces_S1024x1_S1 (.inl rfl) h3) shapeCasts_S1_S1x1) k
      = xo k + ∑ y : S2x1024x1024.Idx, v y := by
  rw [addf_apply, shapeCast_self]
  congr 1
  rw [TotalSum.eq_sum_of_subsingleton (shapeCast S1x1 _ shapeCasts_S1_S1x1) k, TotalSum.sum_shapeCast,
    TotalSum.sum_multiReduction_add_zero, TotalSum.sum_shapeCast, TotalSum.sum_multiReduction_add_zero,
    TotalSum.sum_multiReduction_add_zero]

/-- The sum accumulator's new contents: the old contents plus the block's total masked difference. -/
theorem sum_payload (x0 x1 : Vec Ideal S2x1024x1024 .f32) (xo : Vec Ideal S1x1 .f32) (k : S1x1.Idx) :
    k0_pay4 (F := Ideal) x0 x1 xo k = xo k + ∑ y : S2x1024x1024.Idx, d (x0 y) (x1 y) := by
  unfold k0_pay4 k0_pay3
  exact chain_total _ xo k _ _ _

/-- The count accumulator's new contents: the old contents plus the number of masked entries of the block. -/
theorem count_payload (x0 x1 : Vec Ideal S2x1024x1024 .f32) (xo : Vec Ideal S1x1 .f32) (k : S1x1.Idx) :
    k0_pay5 (F := Ideal) x0 x1 xo k = xo k + ∑ y : S2x1024x1024.Idx, n (x0 y) (x1 y) := by
  unfold k0_pay5 k0_pay3
  exact chain_total _ xo k _ _ _

/-- The zero the first point stores in either accumulator is the number zero. -/
theorem zero_payload1 (k : S1x1.Idx) : k0_pay1 (F := Ideal) k = 0 := by
  show Ideal.ofBits .f32 0x00000000#32 = 0
  exact Ideal.ofBits_zero_f32
theorem zero_payload2 (k : S1x1.Idx) : k0_pay2 (F := Ideal) k = 0 := by
  show Ideal.ofBits .f32 0x00000000#32 = 0
  exact Ideal.ofBits_zero_f32

end Cert.KernelIdeal.BlockValue

end
-- ==== Proof.KernelValue.lean ====
/-
  The kernel computes the specification.

  Grid point t reads block t of each argument (rows 2t and 2t + 1 of the first axis) and adds that block's totals to
  the two accumulators, which the first point starts from zero. So after point k the accumulators hold the totals
  of blocks 0..k, and after the last point the totals of all sixteen blocks, which partition the arrays: the two
  one-element result arrays end holding S and C. The accumulators are written back once, after the last point, and
  their one block is the whole result array. The host lines after the call reshape both to scalars and take the
  mean where anything was counted.
-/
import proofs.«132226_j69355131896601_2_alg».proof.Proof.Pieces
import proofs.«132226_j69355131896601_2_alg».proof.Proof.BlockValue
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KernelValue

open Cert.KernelIdeal Cert.KernelIdeal.Gen MaskedMean Idealize.ShloMosaic.ValueIdx

variable (m : (ℓ : Loc nD τ sig) → Buf (Elt Ideal) ℓ) (ρ : Dev nD → PrngReg)

/-- The two argument arrays on core c. -/
abbrev X (c : Dev nD) : SA.Idx → Ideal .f32 := m ((c : Thread nD τ).loc main_arg0)
abbrev Y (c : Dev nD) : SA.Idx → Ideal .f32 := m ((c : Thread nD τ).loc main_arg1)

/-- A grid point as a block number. -/
def blk (t : Fin cfg0.N) : Fin 16 := ⟨t.val, lt_of_lt_of_eq t.isLt N_0⟩

/-- Both input windows sit at block (t, 0, 0) at point t. -/
theorem idx_facts : ∀ t : Fin cfg0.N, (win0_0.index t 0 = t.val ∧ win0_0.index t 1 = 0 ∧ win0_0.index t 2 = 0)
    ∧ (win0_1.index t 0 = t.val ∧ win0_1.index t 1 = 0 ∧ win0_1.index t 2 = 0) :=
  (by decide +kernel : ∀ t : Fin grid0.N, _)

/-- What point t reads of the first argument is block t of it: entry (b, r, c) is x (2t + b, r, c). -/
theorem iblk0_eq (c : Dev nD) (t : Fin cfg0.N) :
    (iblk m c 0 t : Vec Ideal S2x1024x1024 .f32) = fun y => X m c (blkIdx (blk t) y) := by
  obtain ⟨⟨h0, h1, h2⟩, -⟩ := idx_facts t
  funext y
  unfold iblk
  rw [View.read_apply]
  show V m c main_arg0 _ = m ((c : Thread nD τ).loc main_arg0) _
  rw [V_main_arg0]
  congr 1
  funext a
  apply Fin.ext
  match a with
  | ⟨0, _⟩ => show win0_0.index t 0 * 2 + 1 * (y 0).val = 2 * t.val + (y 0).val; rw [h0]; omega
  | ⟨1, _⟩ => show win0_0.index t 1 * 1024 + 1 * (y 1).val = (y 1).val; rw [h1]; omega
  | ⟨2, _⟩ => show win0_0.index t 2 * 1024 + 1 * (y 2).val = (y 2).val; rw [h2]; omega

/-- And of the second argument likewise. -/
theorem iblk1_eq (c : Dev nD) (t : Fin cfg0.N) :
    (iblk m c 1 t : Vec Ideal S2x1024x1024 .f32) = fun y => Y m c (blkIdx (blk t) y) := by
  obtain ⟨-, ⟨h0, h1, h2⟩⟩ := idx_facts t
  funext y
  unfold iblk
  rw [View.read_apply]
  show V m c main_arg1 _ = m ((c : Thread nD τ).loc main_arg1) _
  rw [V_main_arg1]
  congr 1
  funext a
  apply Fin.ext
  match a with
  | ⟨0, _⟩ => show win0_1.index t 0 * 2 + 1 * (y 0).val = 2 * t.val + (y 0).val; rw [h0]; omega
  | ⟨1, _⟩ => show win0_1.index t 1 * 1024 + 1 * (y 1).val = (y 1).val; rw [h1]; omega
  | ⟨2, _⟩ => show win0_1.index t 2 * 1024 + 1 * (y 2).val = (y 2).val; rw [h2]; omega

/-- Block k's total masked difference and its number of masked entries (zero past the grid). -/
def partS (c : Dev nD) (k : ℕ) : Ideal .f32 :=
  if h : k < cfg0.N then ∑ y : S2x1024x1024.Idx, d ((iblk m c 0 ⟨k, h⟩ : Vec Ideal S2x1024x1024 .f32) y) ((iblk m c 1 ⟨k, h⟩ : Vec Ideal S2x1024x1024 .f32) y) else 0
def partC (c : Dev nD) (k : ℕ) : Ideal .f32 :=
  if h : k < cfg0.N then ∑ y : S2x1024x1024.Idx, n ((iblk m c 0 ⟨k, h⟩ : Vec Ideal S2x1024x1024 .f32) y) ((iblk m c 1 ⟨k, h⟩ : Vec Ideal S2x1024x1024 .f32) y) else 0

theorem partS_eq (c : Dev nD) (k : ℕ) (h : k < cfg0.N) : partS m c k
    = ∑ y : S2x1024x1024.Idx, d ((iblk m c 0 ⟨k, h⟩ : Vec Ideal S2x1024x1024 .f32) y) ((iblk m c 1 ⟨k, h⟩ : Vec Ideal S2x1024x1024 .f32) y) := by
  unfold partS
  exact dif_pos h
theorem partC_eq (c : Dev nD) (k : ℕ) (h : k < cfg0.N) : partC m c k
    = ∑ y : S2x1024x1024.Idx, n ((iblk m c 0 ⟨k, h⟩ : Vec Ideal S2x1024x1024 .f32) y) ((iblk m c 1 ⟨k, h⟩ : Vec Ideal S2x1024x1024 .f32) y) := by
  unfold partC
  exact dif_pos h

/-- THE ACCUMULATION. After point k the accumulators hold the totals of blocks 0, …, k. -/
theorem acc_eq (c : Dev nD) : ∀ (k : ℕ) (h : k < cfg0.N) (i : S1x1.Idx),
    (outsAt0 m c k h).1 i = ∑ j ∈ Finset.range (k + 1), partS m c j
      ∧ (outsAt0 m c k h).2 i = ∑ j ∈ Finset.range (k + 1), partC m c j
  | 0, h, i => by
    rw [outsAt0_A m c ⟨0, h⟩ rfl]
    dsimp only
    rw [Pieces.sum_first, Pieces.count_first, BlockValue.sum_payload, BlockValue.count_payload,
      BlockValue.zero_payload1, BlockValue.zero_payload2, zero_add, zero_add, Finset.sum_range_one, Finset.sum_range_one,
      partS_eq m c 0 h, partC_eq m c 0 h]
    exact ⟨rfl, zero_add _⟩
  | k + 1, h, i => by
    have hN : cfg0.N = 16 := N_0
    have hB : ¬(⟨k + 1, h⟩ : Fin cfg0.N).val % 16 = 0 := by dsimp only; omega
    have ih := acc_eq c k (Nat.lt_of_succ_lt h) i
    rw [outsAt0_B m c ⟨k + 1, h⟩ hB]
    dsimp only
    rw [Pieces.sum_later, Pieces.count_later, BlockValue.sum_payload, BlockValue.count_payload,
      Finset.sum_range_succ _ (k + 1), Finset.sum_range_succ _ (k + 1), partS_eq m c (k + 1) h, partC_eq m c (k + 1) h]
    refine ⟨?_, ?_⟩
    · show (outsAt0 m c k _).1 i + _ = _
      rw [ih.1]
    · show (outsAt0 m c k _).2 i + _ = _
      rw [ih.2]

/-- The sixteen block totals add up to the totals over the arrays. -/
theorem sum_partS (c : Dev nD) : ∑ j ∈ Finset.range 16, partS m c j = S (X m c) (Y m c) := by
  show _ = ∑ j : SA.Idx, d (X m c j) (Y m c j)
  rw [Finset.sum_range, ← sum_blocks fun j => d (X m c j) (Y m c j)]
  refine Finset.sum_congr rfl fun t _ => ?_
  have ht : t.val < cfg0.N := lt_of_lt_of_eq t.isLt N_0.symm
  rw [partS_eq m c t.val ht, iblk0_eq, iblk1_eq]
  rfl
theorem sum_partC (c : Dev nD) : ∑ j ∈ Finset.range 16, partC m c j = C (X m c) (Y m c) := by
  show _ = ∑ j : SA.Idx, n (X m c j) (Y m c j)
  rw [Finset.sum_range, ← sum_blocks fun j => n (X m c j) (Y m c j)]
  refine Finset.sum_congr rfl fun t _ => ?_
  have ht : t.val < cfg0.N := lt_of_lt_of_eq t.isLt N_0.symm
  rw [partC_eq m c t.val ht, iblk0_eq, iblk1_eq]
  rfl

/-! ## The two result arrays after the run -/

/-- What the two one-element result arrays end holding. -/
def resS (c : Dev nD) : Buf (Elt Ideal) ((c : Thread nD τ).loc main_v0_0) := fun _ => S (X m c) (Y m c)
def resC (c : Dev nD) : Buf (Elt Ideal) ((c : Thread nD τ).loc main_v0_1) := fun _ => C (X m c) (Y m c)

/-- After the last point the accumulators hold the totals over the arrays. -/
theorem acc_last (c : Dev nD) :
    (outsAt0 m c t0_15.val t0_15.isLt).1 = resS m c ∧ (outsAt0 m c t0_15.val t0_15.isLt).2 = resC m c :=
  ⟨funext fun i => ((acc_eq m c 15 t0_15.isLt i).1).trans (sum_partS m c),
   funext fun i => ((acc_eq m c 15 t0_15.isLt i).2).trans (sum_partC m c)⟩

/-- The one write-back of the sum accumulator, after the last point, writes the whole result array. -/
theorem flushed2_eq (c : Dev nD) (t : Fin cfg0.N) (hf : (cfg0.win 2).flush t = true) :
    (dats m 0 c).flushed 2 t = ((cfg0.win 2).blk t).view.read (Elt Ideal) (resS m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, (acc_last m c).1]
  have hz' : (fun a => win0_2.index t0_15 a * main_v0_0.ty.shape.size a) = fun _ => 0 := funext fun a => by fin_cases a <;> decide
  exact (Memref.read_access_unit_zero (Elt Ideal) main_v0_0 hz' (fun a => by rw [congrFun hz' a]; simp) (resS m c)).symm

/-- And of the count accumulator. -/
theorem flushed3_eq (c : Dev nD) (t : Fin cfg0.N) (hf : (cfg0.win 3).flush t = true) :
    (dats m 0 c).flushed 3 t = ((cfg0.win 3).blk t).view.read (Elt Ideal) (resC m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3, (acc_last m c).2]
  have hz' : (fun a => win0_3.index t0_15 a * main_v0_1.ty.shape.size a) = fun _ => 0 := funext fun a => by fin_cases a <;> decide
  exact (Memref.read_access_unit_zero (Elt Ideal) main_v0_1 hz' (fun a => by rw [congrFun hz' a]; simp) (resC m c)).symm

/-- The last point's block is the whole one-element array, so the result arrays end at S and at C. -/
theorem final2 (c : Dev nD) : (dats m 0 c).arrAt 2 cfg0.N = resS m c :=
  (dats m 0 c).arrAt_eq_of_cover 2 (resS m c) (flushed2_eq m c) fun i =>
    ⟨t0_15, (flush0_2 t0_15).mpr rfl, by
      show i ∈ ((View.whole main_v0_0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_15 0 * win0_2.size 0 ≤ (i 0 : Nat) ∧ (i 0 : Nat) < win0_2.index t0_15 0 * win0_2.size 0 + win0_2.xsize (grid0.coords t0_15) 0
        rw [show win0_2.index t0_15 0 * win0_2.size 0 = 0 from by decide +kernel, show win0_2.xsize (grid0.coords t0_15) 0 = 1 from by decide +kernel]; omega
      | ⟨1, _⟩ =>
        show win0_2.index t0_15 1 * win0_2.size 1 ≤ (i 1 : Nat) ∧ (i 1 : Nat) < win0_2.index t0_15 1 * win0_2.size 1 + win0_2.xsize (grid0.coords t0_15) 1
        rw [show win0_2.index t0_15 1 * win0_2.size 1 = 0 from by decide +kernel, show win0_2.xsize (grid0.coords t0_15) 1 = 1 from by decide +kernel]; omega⟩

theorem final3 (c : Dev nD) : (dats m 0 c).arrAt 3 cfg0.N = resC m c :=
  (dats m 0 c).arrAt_eq_of_cover 3 (resC m c) (flushed3_eq m c) fun i =>
    ⟨t0_15, (flush0_3 t0_15).mpr rfl, by
      show i ∈ ((View.whole main_v0_1).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_15 0 * win0_3.size 0 ≤ (i 0 : Nat) ∧ (i 0 : Nat) < win0_3.index t0_15 0 * win0_3.size 0 + win0_3.xsize (grid0.coords t0_15) 0
        rw [show win0_3.index t0_15 0 * win0_3.size 0 = 0 from by decide +kernel, show win0_3.xsize (grid0.coords t0_15) 0 = 1 from by decide +kernel]; omega
      | ⟨1, _⟩ =>
        show win0_3.index t0_15 1 * win0_3.size 1 ≤ (i 1 : Nat) ∧ (i 1 : Nat) < win0_3.index t0_15 1 * win0_3.size 1 + win0_3.xsize (grid0.coords t0_15) 1
        rw [show win0_3.index t0_15 1 * win0_3.size 1 = 0 from by decide +kernel, show win0_3.xsize (grid0.coords t0_15) 1 = 1 from by decide +kernel]; omega⟩

/-! ## The host lines after the call -/

/-- The lines after the call, from any contents W of the buffers: they reshape the two one-element arrays to
    scalars and take the mean. -/
theorem tail_of (W : Valuation τ sig (Elt Ideal)) :
    StableHlo.after ([hostOps1 (F := Ideal), hostOps1_1].flatten) W (Proc.devRef .tc main_v6)
      = mean (shapeCast S_ (W (Proc.devRef .tc main_v0_0)) shapeCasts_S1x1_S_)
          (shapeCast S_ (W (Proc.devRef .tc main_v0_1)) shapeCasts_S1x1_S_) := by
  simp only [hostOps1, hostOps1_1, List.flatten_cons, List.flatten_nil, List.append_nil, List.cons_append, List.nil_append]
  after_results
  rfl

/-- The program's result: the lines after the call, applied to the two result arrays, are the mean of S and C. -/
theorem tail_eq (c : Dev nD) :
    Pipeline.afterTail₀ cfgs (dats m) 0 (V0 m) [hostOps1, hostOps1_1] c main_v6
      = mean (fun _ => S (X m c) (Y m c)) (fun _ => C (X m c) (Y m c)) := by
  have e2 : Pipeline.withArrays (cfgs 0).spec c (V0 m c) (fun w => (dats m 0 c).arrAt w (cfgs 0).N) (Proc.devRef .tc main_v0_0)
      = resS m c := (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1)
      = resC m c := (Pipeline.withArrays_arr spec0 launch0.win.arr_inj c _ _ 3).trans (final3 m c)
  unfold Pipeline.afterTail₀
  refine (tail_of _).trans ?_
  rw [e2, e3]
  rfl

/-- The kernel program's run, read: its result is the mean of S and C of its arguments, which it leaves unchanged. -/
theorem run : θ_run (defs (F := Ideal)) (onTc (τ := τ) (main (F := Ideal))) ⟨m, fun _ => 0, ρ⟩ fun r => ∀ c : Dev nD,
      r.2.mem ((c : Thread nD τ).loc main_v6) = mean (fun _ => S (X m c) (Y m c)) (fun _ => C (X m c) (Y m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v6 (Pipeline.mem_restRefs_of main_v6 (by decide) (by decide))).trans (tail_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.KernelValue

end
-- ==== Proof.RefValue.lean ====
/-
  The reference computes the specification.

  The reference flattens both arrays to one axis of 33554432 entries, sums the masked differences from a float
  zero, and counts the mask with a wrapping 32-bit integer sum that it then reads as a signed number. Flattening is
  a bijection of index sets, so each sum over the flat axis is the sum over the three-axis index set. The count is
  at most 2^25, far below 2^31, so the 32-bit sum never wraps and reads as the sum of the mask's entries.
-/
import proofs.«132226_j69355131896601_2_alg».proof.Proof.RefRun
import proofs.«132226_j69355131896601_2_alg».proof.Proof.Spec
import proofs.«132226_j69355131896601_2_alg».proof.Proof.LibTotalSum

noncomputable section

open Idealize.ShloMosaic Idealize.ShloMosaic.TcCoe Idealize.SL.Sem

namespace Cert.ReferenceIdeal.RefValue

open Cert.ReferenceIdeal Cert.ReferenceIdeal.Gen MaskedMean Idealize.ShloMosaic.ValueIdx

/-- The reference's total: the float sum over the flat axis of the masked differences, from a float zero. -/
def total (X Y : FVec Ideal S32x1024x1024 .f32) : FVec Ideal S_ .f32 :=
  Host.reduceAdd (select (cmpf .ogt (shapeCast S33554432 X shapeCasts_S32x1024x1024_S33554432) (shapeCast S33554432 Y shapeCasts_S32x1024x1024_S33554432))
    (subf (shapeCast S33554432 X shapeCasts_S32x1024x1024_S33554432) (shapeCast S33554432 Y shapeCasts_S32x1024x1024_S33554432))
    (broadcastInDim S33554432 ![] bcast_S_S33554432 (id (constant S_ .f32 0x00000000#32))))
    (constant S_ .f32 0x00000000#32) reducesTo_S33554432_S_d0 h_S_

/-- The reference's count: the 32-bit integer sum over the flat axis of the widened mask, read as a signed number. -/
def count (X Y : FVec Ideal S32x1024x1024 .f32) : FVec Ideal S_ .f32 :=
  sitofp .f32 (Host.reduce IntOp.addi (extui 32 (cmpf .ogt (shapeCast S33554432 X shapeCasts_S32x1024x1024_S33554432) (shapeCast S33554432 Y shapeCasts_S32x1024x1024_S33554432)) natLt_1_32)
    (constantI S_ 32 0#32) reducesTo_S33554432_S_d0 h_S_)

/-- The total is S: the flat axis re-indexes the array, and the initial zero adds nothing. -/
theorem total_eq (X Y : FVec Ideal S32x1024x1024 .f32) : total X Y = fun _ => S X Y := by
  funext i
  show Ideal.hostReduceAdd reducesTo_S33554432_S_d0 _ _ i = _
  rw [Ideal.hostReduceAdd_total _ (fun b => b.elim0)]
  show Ideal.ofBits .f32 0x00000000#32 + ∑ j : S33554432.Idx, d (shapeCast S33554432 X shapeCasts_S32x1024x1024_S33554432 j) (shapeCast S33554432 Y shapeCasts_S32x1024x1024_S33554432 j) = _
  rw [Ideal.ofBits_zero_f32, zero_add, TotalSum.sum_shapeCast₂ X Y shapeCasts_S32x1024x1024_S33554432 d]
  rfl

/-- The flat axis has 2^25 indices: fewer than 2^31. -/
theorem card_flat : Fintype.card S33554432.Idx < 2 ^ 31 := by
  rw [TotalSum.card_idx]
  decide

/-- The count is C: the wrapping integer sum never reaches the sign bit, and the flat axis re-indexes the array. -/
theorem count_eq (X Y : FVec Ideal S32x1024x1024 .f32) : count X Y = fun _ => C X Y := by
  funext i
  show (((Host.reduce IntOp.addi (extui 32 (cmpf .ogt (shapeCast S33554432 X shapeCasts_S32x1024x1024_S33554432) (shapeCast S33554432 Y shapeCasts_S32x1024x1024_S33554432)) natLt_1_32)
    (constantI S_ 32 0#32) reducesTo_S33554432_S_d0 h_S_ i).toInt : ℝ) : EReal) = _
  rw [Host.reduce_eq_fold, Finset.filter_true_of_mem fun _ _ => funext fun b => b.elim0]
  show (((Finset.univ.fold IntOp.addi 0#32 fun j : S33554432.Idx =>
      (FloatOps.cmpf (F := Ideal) (φ := .f32) .ogt (shapeCast S33554432 X shapeCasts_S32x1024x1024_S33554432 j) (shapeCast S33554432 Y shapeCasts_S32x1024x1024_S33554432 j)).setWidth 32).toInt : ℝ) : EReal) = _
  rw [TotalSum.toInt_fold_add_bits card_flat]
  exact TotalSum.sum_shapeCast₂ X Y shapeCasts_S32x1024x1024_S33554432 n

/-- The reference's run, read: its result is the mean of S and C of its arguments, which it leaves unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12)
          = mean (fun _ => S (m ((c.tc : Thread nD τ).loc main_arg0)) (m ((c.tc : Thread nD τ).loc main_arg1)))
              (fun _ => C (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      rw [← total_eq, ← count_eq]
      rfl), (h c).2⟩)
    (Cert.ReferenceIdeal.ValueP.run (F := Ideal) m ρ)

end Cert.ReferenceIdeal.RefValue

end
-- ==== Proof.lean ====
/-
  The mean of x - y over the entries where x > y, for two arrays of shape [32, 1024, 1024]: a kernel that streams
  sixteen blocks of two batch rows through two running one-element accumulators, against a reference that
  flattens the arrays and reduces them once.

  Both programs end in the same last step — the mean S / max(C, 1) where C > 0, zero otherwise — applied to a total
  masked difference S and a count C. Over the extended reals the kernel's S and C are the reference's:
    * S: the kernel adds, block by block and within a block axis by axis, the same masked differences the reference
      adds along its flat axis. The blocks partition the index set and flattening is a bijection, so both are the
      sum over all indices; only commutativity and associativity of addition are used, which hold at the
      infinities too, so the inputs' finiteness is never needed.
    * C: the kernel converts each mask bit to a number and adds numbers; the reference adds the mask bits as wrapping
      32-bit integers and converts the sum. The count is at most 2^25 < 2^31, so the integer sum does not wrap and
      its signed reading is the sum of the bits' readings.
  The three frame claims come from the runs: the two kernel programs' frames are the generated frame proofs; the
  reference's frame is its run with the result forgotten. The idealization rewrote nothing, so `preserves` is trivial.
-/
import proofs.«132226_j69355131896601_2_alg».proof.Defs
import proofs.«132226_j69355131896601_2_alg».proof.Proof.Gen.Kernel
import proofs.«132226_j69355131896601_2_alg».proof.Proof.Gen.Kernel.Frame
import proofs.«132226_j69355131896601_2_alg».proof.Proof.Gen.KernelIdeal
import proofs.«132226_j69355131896601_2_alg».proof.Proof.Gen.KernelIdeal.Frame
import proofs.«132226_j69355131896601_2_alg».proof.Proof.Gen.ReferenceIdeal
import proofs.«132226_j69355131896601_2_alg».proof.Proof.Gen.Pre_finite_inputs
import proofs.«132226_j69355131896601_2_alg».proof.Proof.KernelValue
import proofs.«132226_j69355131896601_2_alg».proof.Proof.RefValue
import Idealize.ShloMosaic.Adequacy
import Idealize.ShloMosaic.Init

noncomputable section

namespace Cert.Proof

open Idealize.ShloMosaic Idealize.ShloMosaic.TcCoe Idealize.SL.Sem MaskedMean

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end at the mean of S and C of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨?_, (h c).2⟩)
    (Cert.ReferenceIdeal.RefValue.run m' ρ')
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
